-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2000000 : Shape := ⟨1, ![2000000]⟩
abbrev S2000000x2 : Shape := ⟨2, ![2000000, 2]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x51 : Shape := ⟨2, ![4, 51]⟩
abbrev S51 : Shape := ⟨1, ![51]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x51 : S_.BroadcastsInDim S4x51 (![] : Fin 0 → Fin S4x51.rank)
  reducesTo_S4x51_S_d0_1 : S4x51.ReducesTo [0, 1] S_
  bcast_S_S51 : S_.BroadcastsInDim S51 (![] : Fin 0 → Fin S51.rank)
  reducesTo_S51_S_d0 : S51.ReducesTo [0] S_

variable [Facts]

def fn_part4 {F : FTy → Type} [FloatOps F] (main_arg16 : FVec F S51 .f32) (main_v63 : IVec S_ 1) (main_v67 : IVec S_ 1) : IVec S_ 1 :=
  let main_v68 : IVec S_ 1 := andi main_v63 main_v67
  let main_v69 : FVec F S51 .f32 := Host.absf main_arg16
  let main_cst_26 : FVec F S_ .f32 := constant S_ .f32 0x7F800000#32
  let main_v70 : FVec F S51 .f32 := broadcastInDim S51 ![] bcast_S_S51 main_cst_26
  let main_v71 : IVec S51 1 := cmpf .olt main_v69 main_v70
  let main_c_27 : IVec S_ 1 := constantI S_ 1 1#1
  let main_v72 : IVec S_ 1 := (fun x v => Host.reduce IntOp.andi x v reducesTo_S51_S_d0 h_S_) main_v71 main_c_27
  let main_v73 : IVec S_ 1 := andi main_v68 main_v72
  main_v73

def fn_part3 {F : FTy → Type} [FloatOps F] (main_arg13 : FVec F S8x4 .f32) (main_arg14 : FVec F S4 .f32) (main_arg15 : FVec F S4x51 .f32) (main_arg16 : FVec F S51 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x4 .f32 := Host.absf main_arg13
  let main_cst_20 : FVec F S_ .f32 := constant S_ .f32 0x7F800000#32
  let main_v55 : FVec F S8x4 .f32 := broadcastInDim S8x4 ![] bcast_S_S8x4 main_cst_20
  let main_v56 : IVec S8x4 1 := cmpf .olt main_v54 main_v55
  let main_c_21 : IVec S_ 1 := constantI S_ 1 1#1
  let main_v57 : IVec S_ 1 := (fun x v => Host.reduce IntOp.andi x v reducesTo_S8x4_S_d0_1 h_S_) main_v56 main_c_21
  let main_v58 : IVec S_ 1 := andi main_v53 main_v57
  let main_v59 : FVec F S4 .f32 := Host.absf main_arg14
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x51 .f32 := Host.absf main_arg15
  let main_cst_24 : FVec F S_ .f32 := constant S_ .f32 0x7F800000#32
  let main_v65 : FVec F S4x51 .f32 := broadcastInDim S4x51 ![] bcast_S_S4x51 main_cst_24
  let main_v66 : IVec S4x51 1 := cmpf .olt main_v64 main_v65
  let main_c_25 : IVec S_ 1 := constantI S_ 1 1#1
  let main_v67 : IVec S_ 1 := (fun x v => Host.reduce IntOp.andi x v reducesTo_S4x51_S_d0_1 h_S_) main_v66 main_c_25
  fn_part4 (F := F) main_arg16 main_v63 main_v67

def fn_part2 {F : FTy → Type} [FloatOps F] (main_arg9 : FVec F S32x16 .f32) (main_arg10 : FVec F S16 .f32) (main_arg11 : FVec F S16x8 .f32) (main_arg12 : FVec F S8 .f32) (main_arg13 : FVec F S8x4 .f32) (main_arg14 : FVec F S4 .f32) (main_arg15 : FVec F S4x51 .f32) (main_arg16 : FVec F S51 .f32) (main_v33 : IVec S_ 1) : IVec S_ 1 :=
  let main_v34 : FVec F S32x16 .f32 := Host.absf main_arg9
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x8 .f32 := Host.absf main_arg11
  let main_cst_16 : FVec F S_ .f32 := constant S_ .f32 0x7F800000#32
  let main_v45 : FVec F S16x8 .f32 := broadcastInDim S16x8 ![] bcast_S_S16x8 main_cst_16
  let main_v46 : IVec S16x8 1 := cmpf .olt main_v44 main_v45
  let main_c_17 : IVec S_ 1 := constantI S_ 1 1#1
  let main_v47 : IVec S_ 1 := (fun x v => Host.reduce IntOp.andi x v reducesTo_S16x8_S_d0_1 h_S_) main_v46 main_c_17
  let main_v48 : IVec S_ 1 := andi main_v43 main_v47
  let main_v49 : FVec F S8 .f32 := Host.absf main_arg12
  let main_cst_18 : FVec F S_ .f32 := constant S_ .f32 0x7F800000#32
  let main_v50 : FVec F S8 .f32 := broadcastInDim S8 ![] bcast_S_S8 main_cst_18
  fn_part3 (F := F) main_arg13 main_arg14 main_arg15 main_arg16 main_v48 main_v49 main_v50

def fn_part1 {F : FTy → Type} [FloatOps F] (main_arg6 : FVec F S64 .f32) (main_arg7 : FVec F S64x32 .f32) (main_arg8 : FVec F S32 .f32) (main_arg9 : FVec F S32x16 .f32) (main_arg10 : FVec F S16 .f32) (main_arg11 : FVec F S16x8 .f32) (main_arg12 : FVec F S8 .f32) (main_arg13 : FVec F S8x4 .f32) (main_arg14 : FVec F S4 .f32) (main_arg15 : FVec F S4x51 .f32) (main_arg16 : FVec F S51 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x8 .f32) (main_arg1 : IVec S2000000 32) (main_arg2 : IVec S2000000x2 32) (main_arg3 : FVec F S16x128 .f32) (main_arg4 : FVec F S128 .f32) (main_arg5 : FVec F S128x64 .f32) (main_arg6 : FVec F S64 .f32) (main_arg7 : FVec F S64x32 .f32) (main_arg8 : FVec F S32 .f32) (main_arg9 : FVec F S32x16 .f32) (main_arg10 : FVec F S16 .f32) (main_arg11 : FVec F S16x8 .f32) (main_arg12 : FVec F S8 .f32) (main_arg13 : FVec F S8x4 .f32) (main_arg14 : FVec F S4 .f32) (main_arg15 : FVec F S4x51 .f32) (main_arg16 : FVec F S51 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x8 : Shape := ⟨2, ![100000, 8]⟩
abbrev S2000000 : Shape := ⟨1, ![2000000]⟩
abbrev S2000000x2 : Shape := ⟨2, ![2000000, 2]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x51 : Shape := ⟨2, ![4, 51]⟩
abbrev S51 : Shape := ⟨1, ![51]⟩
abbrev S2000000x1 : Shape := ⟨2, ![2000000, 1]⟩
abbrev S_ : Shape := ⟨0, ![]⟩
abbrev S2000000x8 : Shape := ⟨2, ![2000000, 8]⟩
abbrev S2000000x16 : Shape := ⟨2, ![2000000, 16]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S1x8 : Shape := ⟨2, ![1, 8]⟩
abbrev S1x4 : Shape := ⟨2, ![1, 4]⟩
abbrev S1x51 : Shape := ⟨2, ![1, 51]⟩
abbrev S2000000x51 : Shape := ⟨2, ![2000000, 51]⟩
abbrev S10000x16 : Shape := ⟨2, ![10000, 16]⟩
abbrev S10000x51 : Shape := ⟨2, ![10000, 51]⟩
abbrev S10000x128 : Shape := ⟨2, ![10000, 128]⟩
abbrev S10000x64 : Shape := ⟨2, ![10000, 64]⟩
abbrev S10000x32 : Shape := ⟨2, ![10000, 32]⟩
abbrev S10000x8 : Shape := ⟨2, ![10000, 8]⟩
abbrev S10000x4 : Shape := ⟨2, ![10000, 4]⟩

abbrev nBuf : Space → Nat
  | .hbm => 49
  | .vmem => 18
  | .smem => 0
  | _ => 0

abbrev bufTy : (tb : Table) → Fin (tcTables nBuf tb) → BufTy
  | .hbm, ⟨0, _⟩ => ⟨S100000x8, .f32⟩
  | .hbm, ⟨1, _⟩ => ⟨S2000000, .i32⟩
  | .hbm, ⟨2, _⟩ => ⟨S2000000x2, .i32⟩
  | .hbm, ⟨3, _⟩ => ⟨S16x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x8, .f32⟩
  | .hbm, ⟨12, _⟩ => ⟨S8, .f32⟩
  | .hbm, ⟨13, _⟩ => ⟨S8x4, .f32⟩
  | .hbm, ⟨14, _⟩ => ⟨S4, .f32⟩
  | .hbm, ⟨15, _⟩ => ⟨S4x51, .f32⟩
  | .hbm, ⟨16, _⟩ => ⟨S51, .f32⟩
  | .hbm, ⟨17, _⟩ => ⟨S2000000x1, .i32⟩
  | .hbm, ⟨18, _⟩ => ⟨S2000000, .i32⟩
  | .hbm, ⟨19, _⟩ => ⟨S2000000x1, .i32⟩
  | .hbm, ⟨20, _⟩ => ⟨S2000000, .i32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x8, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x8, .f32⟩
  | .hbm, ⟨39, _⟩ => ⟨S2000000x16, .f32⟩
  | .hbm, ⟨40, _⟩ => ⟨S2000000x16, .bf16⟩
  | .hbm, ⟨41, _⟩ => ⟨S1x128, .f32⟩
  | .hbm, ⟨42, _⟩ => ⟨S1x64, .f32⟩
  | .hbm, ⟨43, _⟩ => ⟨S1x32, .f32⟩
  | .hbm, ⟨44, _⟩ => ⟨S1x16, .f32⟩
  | .hbm, ⟨45, _⟩ => ⟨S1x8, .f32⟩
  | .hbm, ⟨46, _⟩ => ⟨S1x4, .f32⟩
  | .hbm, ⟨47, _⟩ => ⟨S1x51, .f32⟩
  | .hbm, ⟨48, _⟩ => ⟨S2000000x51, .f32⟩
  | .local _ .vmem, ⟨0, _⟩ => ⟨S10000x16, .bf16⟩
  | .local _ .vmem, ⟨1, _⟩ => ⟨S10000x16, .bf16⟩
  | .local _ .vmem, ⟨2, _⟩ => ⟨S16x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S32x16, .f32⟩
  | .local _ .vmem, ⟨9, _⟩ => ⟨S1x16, .f32⟩
  | .local _ .vmem, ⟨10, _⟩ => ⟨S16x8, .f32⟩
  | .local _ .vmem, ⟨11, _⟩ => ⟨S1x8, .f32⟩
  | .local _ .vmem, ⟨12, _⟩ => ⟨S8x4, .f32⟩
  | .local _ .vmem, ⟨13, _⟩ => ⟨S1x4, .f32⟩
  | .local _ .vmem, ⟨14, _⟩ => ⟨S4x51, .f32⟩
  | .local _ .vmem, ⟨15, _⟩ => ⟨S1x51, .f32⟩
  | .local _ .vmem, ⟨16, _⟩ => ⟨S10000x51, .f32⟩
  | .local _ .vmem, ⟨17, _⟩ => ⟨S10000x51, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x51 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x51 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S10000x51 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x8_S2000000x8_S2000000x16_d1 : Shape.Concatenates [S2000000x8, S2000000x8] S2000000x16 1
  bitsLt_bf16_f32 : FTy.bits .bf16 < FTy.bits .f32
  shapeCasts_S128_S1x128 : S128.ShapeCasts S1x128
  shapeCasts_S64_S1x64 : S64.ShapeCasts S1x64
  shapeCasts_S32_S1x32 : S32.ShapeCasts S1x32
  shapeCasts_S16_S1x16 : S16.ShapeCasts S1x16
  shapeCasts_S8_S1x8 : S8.ShapeCasts S1x8
  shapeCasts_S4_S1x4 : S4.ShapeCasts S1x4
  shapeCasts_S51_S1x51 : S51.ShapeCasts S1x51
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S4x51_S4x51_0_0 : ∀ a, (![0, 0] : Fin 2 → Nat) a + S4x51.size a ≤ S4x51.size a
  h_S4x51 : 0 < S4x51.numel
  inb_S1x51_S1x51_0_0 : ∀ a, (![0, 0] : Fin 2 → Nat) a + S1x51.size a ≤ S1x51.size a
  h_S1x51 : 0 < S1x51.numel
  shapeCasts_S1x51_S1x51 : S1x51.ShapeCasts S1x51
  broadcasts_S1x51_S10000x51 : S1x51.Broadcasts S10000x51
  inb_S10000x51_S10000x51_0_0 : ∀ a, (![0, 0] : Fin 2 → Nat) a + S10000x51.size a ≤ S10000x51.size a
  h_S10000x51 : 0 < S10000x51.numel
  gather_S100000x8_S2000000x1_S2000000x8_1_0_n_n_0_1_18_wf : GatherDims.WF S100000x8 S2000000x1 S2000000x8 [1] [0] [] [0] [] 1 ![1, 8]
  dot_S10000x16_S16x128_S10000x128_1_0_0_1_n_n_wf : DotDims.WF S10000x16 S16x128 S10000x128 [1] [0] [0] [1] [] []
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  dot_S10000x16_S16x8_S10000x8_1_0_0_1_n_n_wf : DotDims.WF S10000x16 S16x8 S10000x8 [1] [0] [0] [1] [] []
  dot_S10000x8_S8x4_S10000x4_1_0_0_1_n_n_wf : DotDims.WF S10000x8 S8x4 S10000x4 [1] [0] [0] [1] [] []
  dot_S10000x4_S4x51_S10000x51_1_0_0_1_n_n_wf : DotDims.WF S10000x4 S4x51 S10000x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S2000000x16.size a
  hwx0_0 : ∀ i : grid0.Coords, EltTy.bits .bf16 = 32 ∨ (Rect.block (s := S2000000x16) S10000x16.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x16.size a ≤ S32x16.size a
  hwx0_7 : ∀ i : grid0.Coords, EltTy.bits .f32 = 32 ∨ (Rect.block (s := S32x16) S32x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x8.size a ≤ S16x8.size a
  hwx0_9 : ∀ i : grid0.Coords, EltTy.bits .f32 = 32 ∨ (Rect.block (s := S16x8) S16x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8.size a ≤ S1x8.size a
  hwx0_10 : ∀ i : grid0.Coords, EltTy.bits .f32 = 32 ∨ (Rect.block (s := S1x8) S1x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x4.size a ≤ S8x4.size a
  hwx0_11 : ∀ i : grid0.Coords, EltTy.bits .f32 = 32 ∨ (Rect.block (s := S8x4) S8x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x4.size a ≤ S1x4.size a
  hwx0_12 : ∀ i : grid0.Coords, EltTy.bits .f32 = 32 ∨ (Rect.block (s := S1x4) S1x4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x51.size a ≤ S4x51.size a
  hwx0_13 : ∀ i : grid0.Coords, EltTy.bits .f32 = 32 ∨ (Rect.block (s := S4x51) S4x51.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x51.size a ≤ S1x51.size a
  hwx0_14 : ∀ i : grid0.Coords, EltTy.bits .f32 = 32 ∨ (Rect.block (s := S1x51) S1x51.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S10000x51.size a ≤ S2000000x51.size a
  hwx0_15 : ∀ i : grid0.Coords, EltTy.bits .f32 = 32 ∨ (Rect.block (s := S2000000x51) S10000x51.size (cc0_transform_15 i) (hinb0_15 i)).WholeWords (EltTy.packing .f32)

variable [Facts₀]

def gather_S100000x8_S2000000x1_S2000000x8_1_0_n_n_0_1_18 : GatherDims S100000x8 S2000000x1 S2000000x8 where
  offsetDims := [1]
  collapsedSliceDims := [0]
  operandBatchingDims := []
  startIndicesBatchingDims := []
  startIndexMap := [0]
  indexVectorDim := 1
  sliceSizes := ![1, 8]
  wf := gather_S100000x8_S2000000x1_S2000000x8_1_0_n_n_0_1_18_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x8_S8x4_S10000x4_1_0_0_1_n_n : DotDims S10000x8 S8x4 S10000x4 where
  lhsContracting := [1]
  rhsContracting := [0]
  lhsNonContracting := [0]
  rhsNonContracting := [1]
  lhsBatch := []
  rhsBatch := []
  wf := dot_S10000x8_S8x4_S10000x4_1_0_0_1_n_n_wf
def dot_S10000x4_S4x51_S10000x51_1_0_0_1_n_n : DotDims S10000x4 S4x51 S10000x51 where
  lhsContracting := [1]
  rhsContracting := [0]
  lhsNonContracting := [0]
  rhsNonContracting := [1]
  lhsBatch := []
  rhsBatch := []
  wf := dot_S10000x4_S4x51_S10000x51_1_0_0_1_n_n_wf

abbrev win0_0 : Pipeline.Window sig grid0 :=
  Pipeline.Window.ofSpec (Memref.whole main_v19) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S16x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S8x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25) S1x4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S4x51.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x51.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S10000x51.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x8 : Shape := ⟨2, ![100000, 8]⟩
abbrev S2000000 : Shape := ⟨1, ![2000000]⟩
abbrev S2000000x2 : Shape := ⟨2, ![2000000, 2]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x51 : Shape := ⟨2, ![4, 51]⟩
abbrev S51 : Shape := ⟨1, ![51]⟩
abbrev S2000000x1 : Shape := ⟨2, ![2000000, 1]⟩
abbrev S_ : Shape := ⟨0, ![]⟩
abbrev S2000000x8 : Shape := ⟨2, ![2000000, 8]⟩
abbrev S2000000x16 : Shape := ⟨2, ![2000000, 16]⟩
abbrev S2000000x128 : Shape := ⟨2, ![2000000, 128]⟩
abbrev S1x128 : Shape := ⟨2, ![1, 128]⟩
abbrev S2000000x64 : Shape := ⟨2, ![2000000, 64]⟩
abbrev S1x64 : Shape := ⟨2, ![1, 64]⟩
abbrev S2000000x32 : Shape := ⟨2, ![2000000, 32]⟩
abbrev S1x32 : Shape := ⟨2, ![1, 32]⟩
abbrev S1x16 : Shape := ⟨2, ![1, 16]⟩
abbrev S1x8 : Shape := ⟨2, ![1, 8]⟩
abbrev S2000000x4 : Shape := ⟨2, ![2000000, 4]⟩
abbrev S1x4 : Shape := ⟨2, ![1, 4]⟩
abbrev S2000000x51 : Shape := ⟨2, ![2000000, 51]⟩
abbrev S1x51 : Shape := ⟨2, ![1, 51]⟩

abbrev nBuf : Space → Nat
  | .hbm => 83
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2000000, .i32⟩
  | .hbm, ⟨2, _⟩ => ⟨S2000000x2, .i32⟩
  | .hbm, ⟨3, _⟩ => ⟨S16x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x8, .f32⟩
  | .hbm, ⟨12, _⟩ => ⟨S8, .f32⟩
  | .hbm, ⟨13, _⟩ => ⟨S8x4, .f32⟩
  | .hbm, ⟨14, _⟩ => ⟨S4, .f32⟩
  | .hbm, ⟨15, _⟩ => ⟨S4x51, .f32⟩
  | .hbm, ⟨16, _⟩ => ⟨S51, .f32⟩
  | .hbm, ⟨17, _⟩ => ⟨S2000000x1, .i32⟩
  | .hbm, ⟨18, _⟩ => ⟨S2000000, .i32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000x8, .f32⟩
  | .hbm, ⟨28, _⟩ => ⟨S2000000x1, .i32⟩
  | .hbm, ⟨29, _⟩ => ⟨S2000000, .i32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x8, .f32⟩
  | .hbm, ⟨39, _⟩ => ⟨S2000000x16, .f32⟩
  | .hbm, ⟨40, _⟩ => ⟨S2000000x128, .f32⟩
  | .hbm, ⟨41, _⟩ => ⟨S1x128, .f32⟩
  | .hbm, ⟨42, _⟩ => ⟨S2000000x128, .f32⟩
  | .hbm, ⟨43, _⟩ => ⟨S2000000x128, .f32⟩
  | .hbm, ⟨44, _⟩ => ⟨S_, .f32⟩
  | .hbm, ⟨45, _⟩ => ⟨S2000000x128, .f32⟩
  | .hbm, ⟨46, _⟩ => ⟨S2000000x128, .f32⟩
  | .hbm, ⟨47, _⟩ => ⟨S2000000x64, .f32⟩
  | .hbm, ⟨48, _⟩ => ⟨S1x64, .f32⟩
  | .hbm, ⟨49, _⟩ => ⟨S2000000x64, .f32⟩
  | .hbm, ⟨50, _⟩ => ⟨S2000000x64, .f32⟩
  | .hbm, ⟨51, _⟩ => ⟨S_, .f32⟩
  | .hbm, ⟨52, _⟩ => ⟨S2000000x64, .f32⟩
  | .hbm, ⟨53, _⟩ => ⟨S2000000x64, .f32⟩
  | .hbm, ⟨54, _⟩ => ⟨S2000000x32, .f32⟩
  | .hbm, ⟨55, _⟩ => ⟨S1x32, .f32⟩
  | .hbm, ⟨56, _⟩ => ⟨S2000000x32, .f32⟩
  | .hbm, ⟨57, _⟩ => ⟨S2000000x32, .f32⟩
  | .hbm, ⟨58, _⟩ => ⟨S_, .f32⟩
  | .hbm, ⟨59, _⟩ => ⟨S2000000x32, .f32⟩
  | .hbm, ⟨60, _⟩ => ⟨S2000000x32, .f32⟩
  | .hbm, ⟨61, _⟩ => ⟨S2000000x16, .f32⟩
  | .hbm, ⟨62, _⟩ => ⟨S1x16, .f32⟩
  | .hbm, ⟨63, _⟩ => ⟨S2000000x16, .f32⟩
  | .hbm, ⟨64, _⟩ => ⟨S2000000x16, .f32⟩
  | .hbm, ⟨65, _⟩ => ⟨S2000000x8, .f32⟩
  | .hbm, ⟨66, _⟩ => ⟨S1x8, .f32⟩
  | .hbm, ⟨67, _⟩ => ⟨S2000000x8, .f32⟩
  | .hbm, ⟨68, _⟩ => ⟨S2000000x8, .f32⟩
  | .hbm, ⟨69, _⟩ => ⟨S_, .f32⟩
  | .hbm, ⟨70, _⟩ => ⟨S2000000x8, .f32⟩
  | .hbm, ⟨71, _⟩ => ⟨S2000000x8, .f32⟩
  | .hbm, ⟨72, _⟩ => ⟨S2000000x4, .f32⟩
  | .hbm, ⟨73, _⟩ => ⟨S1x4, .f32⟩
  | .hbm, ⟨74, _⟩ => ⟨S2000000x4, .f32⟩
  | .hbm, ⟨75, _⟩ => ⟨S2000000x4, .f32⟩
  | .hbm, ⟨76, _⟩ => ⟨S_, .f32⟩
  | .hbm, ⟨77, _⟩ => ⟨S2000000x4, .f32⟩
  | .hbm, ⟨78, _⟩ => ⟨S2000000x4, .f32⟩
  | .hbm, ⟨79, _⟩ => ⟨S2000000x51, .f32⟩
  | .hbm, ⟨80, _⟩ => ⟨S1x51, .f32⟩
  | .hbm, ⟨81, _⟩ => ⟨S2000000x51, .f32⟩
  | .hbm, ⟨82, _⟩ => ⟨S2000000x51, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_cst : Ref sig .tc := ⟨.hbm, 44, rfl⟩
abbrev main_call0_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_cst : Ref sig .tc := ⟨.hbm, 69, rfl⟩
abbrev main_call3_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call4_cst : Ref sig .tc := ⟨.hbm, 76, rfl⟩
abbrev main_call4_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  slices_S2000000x2_S2000000x1_0_0 : S2000000x2.Slices ![0, 0] S2000000x1
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2000000x2_S2000000x1_0_1 : S2000000x2.Slices ![0, 1] S2000000x1
  concatenates_S2000000x8_S2000000x8_S2000000x16_d1 : Shape.Concatenates [S2000000x8, S2000000x8] S2000000x16 1
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  bcast_S_S2000000x128 : S_.BroadcastsInDim S2000000x128 (![] : Fin 0 → Fin S2000000x128.rank)
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S_S2000000x8 : S_.BroadcastsInDim S2000000x8 (![] : Fin 0 → Fin S2000000x8.rank)
  bcast_S4_S1x4_1 : S4.BroadcastsInDim S1x4 (![1] : Fin 1 → Fin S1x4.rank)
  bcast_S1x4_S2000000x4_0_1 : S1x4.BroadcastsInDim S2000000x4 (![0, 1] : Fin 2 → Fin S2000000x4.rank)
  bcast_S_S2000000x4 : S_.BroadcastsInDim S2000000x4 (![] : Fin 0 → Fin S2000000x4.rank)
  bcast_S51_S1x51_1 : S51.BroadcastsInDim S1x51 (![1] : Fin 1 → Fin S1x51.rank)
  bcast_S1x51_S2000000x51_0_1 : S1x51.BroadcastsInDim S2000000x51 (![0, 1] : Fin 2 → Fin S2000000x51.rank)
  gather_S100000x8_S2000000x1_S2000000x8_1_0_n_n_0_1_18_wf : GatherDims.WF S100000x8 S2000000x1 S2000000x8 [1] [0] [] [0] [] 1 ![1, 8]
  dot_S2000000x16_S16x128_S2000000x128_1_0_0_1_n_n_wf : DotDims.WF S2000000x16 S16x128 S2000000x128 [1] [0] [0] [1] [] []
  dot_S2000000x128_S128x64_S2000000x64_1_0_0_1_n_n_wf : DotDims.WF S2000000x128 S128x64 S2000000x64 [1] [0] [0] [1] [] []
  dot_S2000000x64_S64x32_S2000000x32_1_0_0_1_n_n_wf : DotDims.WF S2000000x64 S64x32 S2000000x32 [1] [0] [0] [1] [] []
  dot_S2000000x32_S32x16_S2000000x16_1_0_0_1_n_n_wf : DotDims.WF S2000000x32 S32x16 S2000000x16 [1] [0] [0] [1] [] []
  dot_S2000000x16_S16x8_S2000000x8_1_0_0_1_n_n_wf : DotDims.WF S2000000x16 S16x8 S2000000x8 [1] [0] [0] [1] [] []
  dot_S2000000x8_S8x4_S2000000x4_1_0_0_1_n_n_wf : DotDims.WF S2000000x8 S8x4 S2000000x4 [1] [0] [0] [1] [] []
  dot_S2000000x4_S4x51_S2000000x51_1_0_0_1_n_n_wf : DotDims.WF S2000000x4 S4x51 S2000000x51 [1] [0] [0] [1] [] []

variable [Facts₀]

def gather_S100000x8_S2000000x1_S2000000x8_1_0_n_n_0_1_18 : GatherDims S100000x8 S2000000x1 S2000000x8 where
  offsetDims := [1]
  collapsedSliceDims := [0]
  operandBatchingDims := []
  startIndicesBatchingDims := []
  startIndexMap := [0]
  indexVectorDim := 1
  sliceSizes := ![1, 8]
  wf := gather_S100000x8_S2000000x1_S2000000x8_1_0_n_n_0_1_18_wf
def dot_S2000000x16_S16x128_S2000000x128_1_0_0_1_n_n : DotDims S2000000x16 S16x128 S2000000x128 where
  lhsContracting := [1]
  rhsContracting := [0]
  lhsNonContracting := [0]
  rhsNonContracting := [1]
  lhsBatch := []
  rhsBatch := []
  wf := dot_S2000000x16_S16x128_S2000000x128_1_0_0_1_n_n_wf
def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def dot_S2000000x64_S64x32_S2000000x32_1_0_0_1_n_n : DotDims S2000000x64 S64x32 S2000000x32 where
  lhsContracting := [1]
  rhsContracting := [0]
  lhsNonContracting := [0]
  rhsNonContracting := [1]
  lhsBatch := []
  rhsBatch := []
  wf := dot_S2000000x64_S64x32_S2000000x32_1_0_0_1_n_n_wf
def dot_S2000000x32_S32x16_S2000000x16_1_0_0_1_n_n : DotDims S2000000x32 S32x16 S2000000x16 where
  lhsContracting := [1]
  rhsContracting := [0]
  lhsNonContracting := [0]
  rhsNonContracting := [1]
  lhsBatch := []
  rhsBatch := []
  wf := dot_S2000000x32_S32x16_S2000000x16_1_0_0_1_n_n_wf
def dot_S2000000x16_S16x8_S2000000x8_1_0_0_1_n_n : DotDims S2000000x16 S16x8 S2000000x8 where
  lhsContracting := [1]
  rhsContracting := [0]
  lhsNonContracting := [0]
  rhsNonContracting := [1]
  lhsBatch := []
  rhsBatch := []
  wf := dot_S2000000x16_S16x8_S2000000x8_1_0_0_1_n_n_wf
def dot_S2000000x8_S8x4_S2000000x4_1_0_0_1_n_n : DotDims S2000000x8 S8x4 S2000000x4 where
  lhsContracting := [1]
  rhsContracting := [0]
  lhsNonContracting := [0]
  rhsNonContracting := [1]
  lhsBatch := []
  rhsBatch := []
  wf := dot_S2000000x8_S8x4_S2000000x4_1_0_0_1_n_n_wf
def dot_S2000000x4_S4x51_S2000000x51_1_0_0_1_n_n : DotDims S2000000x4 S4x51 S2000000x51 where
  lhsContracting := [1]
  rhsContracting := [0]
  lhsNonContracting := [0]
  rhsNonContracting := [1]
  lhsBatch := []
  rhsBatch := []
  wf := dot_S2000000x4_S4x51_S2000000x51_1_0_0_1_n_n_wf

class Facts : Prop extends Facts₀ where

variable [Facts]
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«135244_j72980084293697_2_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.Mlp.lean ====
/-
  The specification: what both programs compute, as one function of the arrays.

  Every edge (row) p of the gathered feature matrix h : [2000000, 16] goes, independently of the other rows, through
  seven dense layers:  16 → 128 → 64 → 32 → 16  (ReLU after the first three, none after the fourth), then
  16 → 8 → 4 → 51  (ReLU after the first two). `mlp` is that composition on one row; `result` is the [2000000, 51]
  array whose entry (p, e) is entry e of `mlp` of row p of h. The weights are matrices [K, N] read by rows, the biases
  functions of the output coordinate. Nothing here depends on a tiling of the rows: a block of rows of the result is
  `mlp` of the same block of rows of h.
-/
import proofs.«135244_j72980084293697_2_alg».proof.Proof.LibDenseRows

noncomputable section

namespace Cert.Mlp

open Idealize.ShloMosaic Idealize.ShloMosaic.ValueIdx Cert.LibDenseRows

/-- The seven layers on one row of 16 features. -/
def mlp (W0 : Fin 16 → Fin 128 → EReal) (b0 : Fin 128 → EReal) (W1 : Fin 128 → Fin 64 → EReal) (b1 : Fin 64 → EReal)
    (W2 : Fin 64 → Fin 32 → EReal) (b2 : Fin 32 → EReal) (W3 : Fin 32 → Fin 16 → EReal) (b3 : Fin 16 → EReal)
    (W4 : Fin 16 → Fin 8 → EReal) (b4 : Fin 8 → EReal) (W5 : Fin 8 → Fin 4 → EReal) (b5 : Fin 4 → EReal)
    (W6 : Fin 4 → Fin 51 → EReal) (b6 : Fin 51 → EReal) (x : Fin 16 → EReal) : Fin 51 → EReal :=
  dense W6 b6 (relu (dense W5 b5 (relu (dense W4 b4 (dense W3 b3 (relu (dense W2 b2 (relu (dense W1 b1 (relu (dense W0 b0 x)))))))))))

/-- The result array: entry (p, e) is entry e of the seven layers applied to row p of the feature matrix. -/
def result (h : (⟨2, ![2000000, 16]⟩ : Shape).Idx → EReal)
    (W0 : Fin 16 → Fin 128 → EReal) (b0 : Fin 128 → EReal) (W1 : Fin 128 → Fin 64 → EReal) (b1 : Fin 64 → EReal)
    (W2 : Fin 64 → Fin 32 → EReal) (b2 : Fin 32 → EReal) (W3 : Fin 32 → Fin 16 → EReal) (b3 : Fin 16 → EReal)
    (W4 : Fin 16 → Fin 8 → EReal) (b4 : Fin 8 → EReal) (W5 : Fin 8 → Fin 4 → EReal) (b5 : Fin 4 → EReal)
    (W6 : Fin 4 → Fin 51 → EReal) (b6 : Fin 51 → EReal) : (⟨2, ![2000000, 51]⟩ : Shape).Idx → EReal :=
  fun i => mlp W0 b0 W1 b1 W2 b2 W3 b3 W4 b4 W5 b5 W6 b6 (rows h (i 0)) (i 1)

theorem result_apply (h : (⟨2, ![2000000, 16]⟩ : Shape).Idx → EReal)
    (W0 : Fin 16 → Fin 128 → EReal) (b0 : Fin 128 → EReal) (W1 : Fin 128 → Fin 64 → EReal) (b1 : Fin 64 → EReal)
    (W2 : Fin 64 → Fin 32 → EReal) (b2 : Fin 32 → EReal) (W3 : Fin 32 → Fin 16 → EReal) (b3 : Fin 16 → EReal)
    (W4 : Fin 16 → Fin 8 → EReal) (b4 : Fin 8 → EReal) (W5 : Fin 8 → Fin 4 → EReal) (b5 : Fin 4 → EReal)
    (W6 : Fin 4 → Fin 51 → EReal) (b6 : Fin 51 → EReal) (p : Fin 2000000) (e : Fin 51) :
    result h W0 b0 W1 b1 W2 b2 W3 b3 W4 b4 W5 b5 W6 b6 (ix2 p e)
      = mlp W0 b0 W1 b1 W2 b2 W3 b3 W4 b4 W5 b5 W6 b6 (rows h p) e := rfl

end Cert.Mlp

end
-- ==== Proof.KernelRows.lean ====
/-
  The kernel body's arithmetic, row by row.

  The body loads a block of 10000 rows of the (already gathered, concatenated) features and the fourteen weight and
  bias blocks, and stores ONE value: seven matrix products into zero accumulators, each followed by the addition of a
  [1, N] bias row broadcast over the 10000 rows, with a maximum against the zero splat after layers 0, 1, 2, 4 and 5.
  The narrowings to bf16 in front of every product are the identity on the extended reals. So row r of the stored value
  is `Mlp.mlp` of row r of the feature block — each row of the block on its own, whatever the other rows hold.
-/
import proofs.«135244_j72980084293697_2_alg».proof.Proof.Gen.KernelIdeal.Skeleton
import proofs.«135244_j72980084293697_2_alg».proof.Proof.Mlp
import Idealize.ShloMosaic.Lib.Pipeline.Value

noncomputable section

namespace Cert.KernelIdeal.Body

open Idealize.ShloMosaic Idealize.ShloMosaic.ValueIdx Cert.KernelIdeal Cert.KernelIdeal.Gen Cert.LibDenseRows

/-- Layers 0–2 and the product of layer 3 (its bias is added by the second half): row by row. -/
theorem rows_first_half (v0 : Vec Ideal S10000x16 .bf16) (v2 : Vec Ideal S16x128 .f32) (v5 : Vec Ideal S1x128 .f32)
    (v12 : Vec Ideal S128x64 .f32) (v15 : Vec Ideal S1x64 .f32) (v22 : Vec Ideal S64x32 .f32) (v25 : Vec Ideal S1x32 .f32)
    (v32 : Vec Ideal S32x16 .f32) (r : Fin 10000) :
    rows (k0_pay2 (F := Ideal) v0 v2 v5 v12 v15 v22 v25 v32) r
      = matvec (rows v32) (relu (dense (rows v22) (rows v25 0) (relu (dense (rows v12) (rows v15 0)
          (relu (dense (rows v2) (rows v5 0) (rows v0 r))))))) := by
  unfold k0_pay2
  simp only [shapeCast_self, truncf_eq,
    rows_matmul_bias dot_S10000x16_S16x128_S10000x128_1_0_0_1_n_n rfl,
    rows_matmul_bias dot_S10000x128_S128x64_S10000x64_1_0_0_1_n_n rfl,
    rows_matmul_bias dot_S10000x64_S64x32_S10000x32_1_0_0_1_n_n rfl,
    rows_matmul_zero dot_S10000x32_S32x16_S10000x16_1_0_0_1_n_n rfl,
    rows_max_zero]

/-- The bias of layer 3 and layers 4–6, row by row, from the product of layer 3. -/
theorem rows_second_half (v34 : FVec Ideal S10000x16 .f32) (v35 : Vec Ideal S1x16 .f32) (v40 : Vec Ideal S16x8 .f32)
    (v43 : Vec Ideal S1x8 .f32) (v50 : Vec Ideal S8x4 .f32) (v53 : Vec Ideal S1x4 .f32) (v60 : Vec Ideal S4x51 .f32)
    (v63 : Vec Ideal S1x51 .f32) (r : Fin 10000) :
    rows (k0_pay1 (F := Ideal) v34 v35 v40 v43 v50 v53 v60 v63) r
      = dense (rows v60) (rows v63 0) (relu (dense (rows v50) (rows v53 0) (relu (dense (rows v40) (rows v43 0)
          (fun e => rows v34 r e + rows v35 0 e))))) := by
  unfold k0_pay1
  simp only [shapeCast_self, truncf_eq,
    rows_matmul_bias dot_S10000x16_S16x8_S10000x8_1_0_0_1_n_n rfl,
    rows_matmul_bias dot_S10000x8_S8x4_S10000x4_1_0_0_1_n_n rfl,
    rows_matmul_bias dot_S10000x4_S4x51_S10000x51_1_0_0_1_n_n rfl,
    rows_add_broadcast_row, rows_max_zero]

/-- THE STORED VALUE at (r, e): entry e of the seven layers applied to row r of the feature block, with the weight
    blocks read by rows and each bias block's one row. -/
theorem stored_apply (x0 : Vec Ideal S10000x16 .bf16) (x1 : Vec Ideal S16x128 .f32) (x2 : Vec Ideal S1x128 .f32)
    (x3 : Vec Ideal S128x64 .f32) (x4 : Vec Ideal S1x64 .f32) (x5 : Vec Ideal S64x32 .f32) (x6 : Vec Ideal S1x32 .f32)
    (x7 : Vec Ideal S32x16 .f32) (x8 : Vec Ideal S1x16 .f32) (x9 : Vec Ideal S16x8 .f32) (x10 : Vec Ideal S1x8 .f32)
    (x11 : Vec Ideal S8x4 .f32) (x12 : Vec Ideal S1x4 .f32) (x13 : Vec Ideal S4x51 .f32) (x14 : Vec Ideal S1x51 .f32)
    (r : Fin 10000) (e : Fin 51) :
    k0_pay1 (F := Ideal) (k0_pay2 (F := Ideal) x0 x1 x2 x3 x4 x5 x6 x7) x8 x9 x10 x11 x12 x13 x14 (ix2 r e)
      = Cert.Mlp.mlp (rows x1) (rows x2 0) (rows x3) (rows x4 0) (rows x5) (rows x6 0) (rows x7) (rows x8 0)
          (rows x9) (rows x10 0) (rows x11) (rows x12 0) (rows x13) (rows x14 0) (rows x0 r) e := by
  show rows (k0_pay1 (F := Ideal) (k0_pay2 (F := Ideal) x0 x1 x2 x3 x4 x5 x6 x7) x8 x9 x10 x11 x12 x13 x14) r e = _
  rw [rows_second_half, rows_first_half]
  rfl

end Cert.KernelIdeal.Body

end
-- ==== Proof.KernelArray.lean ====
/-
  From the blocks to the whole result array.

  The grid has 200 points. At point t the kernel is handed rows 10000·t … 10000·t + 9999 of the feature matrix (window 0)
  and the whole of each of the fourteen weight and bias arrays (windows 1–14, always at block (0, 0)), and writes back
  rows 10000·t … 10000·t + 9999 of the result (window 15). Since every row of the stored value is `Mlp.mlp` of the same
  row of the feature block (KernelRows), what point t writes back is block t of ONE array, `arrayOf`: `Mlp.result` of the
  arrays as the region finds them. The 200 blocks of 10000 rows tile the 2000000 rows (row p lies in block p / 10000), so
  after the run the result array is `arrayOf`.
-/
import proofs.«135244_j72980084293697_2_alg».proof.Proof.Gen.KernelIdeal.Value
import proofs.«135244_j72980084293697_2_alg».proof.Proof.KernelRows
import Idealize.ShloMosaic.Lib.Pipeline.Value
import Idealize.ShloMosaic.Lib.ValueLayout

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.LibDenseRows
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 200 points: the feature window and the result window sit at block (t, 0),
    every weight and bias window at block (0, 0). -/
theorem idx_facts : ∀ t : Fin cfg0.N, win0_0.index t (0 : Fin 2) = t.val
    ∧ win0_0.index t (1 : Fin 2) = 0
    ∧ win0_15.index t (0 : Fin 2) = t.val
    ∧ win0_15.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0 :=
  (by decide +kernel : ∀ t : Fin grid0.N, _)

/-- The result array as ONE function of the arrays the region finds: the seven layers on every row of the feature
    matrix, the weights read by rows, each [1, N] bias array's one row. -/
abbrev arrayOf (c : Dev nD) : S2000000x51.Idx → EReal :=
  Cert.Mlp.result (V m c main_v19) (rows (M := 16) (N := 128) (V m c main_arg3)) (rows (M := 1) (N := 128) (V m c main_v20) 0) (rows (M := 128) (N := 64) (V m c main_arg5)) (rows (M := 1) (N := 64) (V m c main_v21) 0) (rows (M := 64) (N := 32) (V m c main_arg7)) (rows (M := 1) (N := 32) (V m c main_v22) 0) (rows (M := 32) (N := 16) (V m c main_arg9)) (rows (M := 1) (N := 16) (V m c main_v23) 0) (rows (M := 16) (N := 8) (V m c main_arg11)) (rows (M := 1) (N := 8) (V m c main_v24) 0) (rows (M := 8) (N := 4) (V m c main_arg13)) (rows (M := 1) (N := 4) (V m c main_v25) 0) (rows (M := 4) (N := 51) (V m c main_arg15)) (rows (M := 1) (N := 51) (V m c main_v26) 0)

/-- At one point, over variables: if row r of the feature block is row p of the feature matrix and the weight and bias
    blocks are the whole arrays, the stored value at (r, e) is the result array's entry (p, e). -/
theorem point_eq (x0 : Vec Ideal S10000x16 .bf16) (x1 : Vec Ideal S16x128 .f32) (x2 : Vec Ideal S1x128 .f32) (x3 : Vec Ideal S128x64 .f32) (x4 : Vec Ideal S1x64 .f32) (x5 : Vec Ideal S64x32 .f32) (x6 : Vec Ideal S1x32 .f32) (x7 : Vec Ideal S32x16 .f32) (x8 : Vec Ideal S1x16 .f32) (x9 : Vec Ideal S16x8 .f32) (x10 : Vec Ideal S1x8 .f32) (x11 : Vec Ideal S8x4 .f32) (x12 : Vec Ideal S1x4 .f32) (x13 : Vec Ideal S4x51 .f32) (x14 : Vec Ideal S1x51 .f32)
    (h : S2000000x16.Idx → EReal) (A1 : Vec Ideal S16x128 .f32) (A2 : Vec Ideal S1x128 .f32) (A3 : Vec Ideal S128x64 .f32) (A4 : Vec Ideal S1x64 .f32) (A5 : Vec Ideal S64x32 .f32) (A6 : Vec Ideal S1x32 .f32) (A7 : Vec Ideal S32x16 .f32) (A8 : Vec Ideal S1x16 .f32) (A9 : Vec Ideal S16x8 .f32) (A10 : Vec Ideal S1x8 .f32) (A11 : Vec Ideal S8x4 .f32) (A12 : Vec Ideal S1x4 .f32) (A13 : Vec Ideal S4x51 .f32) (A14 : Vec Ideal S1x51 .f32)
    (h1 : x1 = A1) (h2 : x2 = A2) (h3 : x3 = A3) (h4 : x4 = A4) (h5 : x5 = A5) (h6 : x6 = A6) (h7 : x7 = A7) (h8 : x8 = A8) (h9 : x9 = A9) (h10 : x10 = A10) (h11 : x11 = A11) (h12 : x12 = A12) (h13 : x13 = A13) (h14 : x14 = A14)
    (r : Fin 10000) (e : Fin 51) (p : Fin 2000000) (hrow : ∀ k : Fin 16, x0 (ix2 r k) = h (ix2 p k)) :
    k0_pay1 (F := Ideal) (k0_pay2 (F := Ideal) x0 x1 x2 x3 x4 x5 x6 x7) x8 x9 x10 x11 x12 x13 x14 (ix2 r e)
      = Cert.Mlp.result h (rows (M := 16) (N := 128) A1) (rows (M := 1) (N := 128) A2 0) (rows (M := 128) (N := 64) A3) (rows (M := 1) (N := 64) A4 0) (rows (M := 64) (N := 32) A5) (rows (M := 1) (N := 32) A6 0) (rows (M := 32) (N := 16) A7) (rows (M := 1) (N := 16) A8 0) (rows (M := 16) (N := 8) A9) (rows (M := 1) (N := 8) A10 0) (rows (M := 8) (N := 4) A11) (rows (M := 1) (N := 4) A12 0) (rows (M := 4) (N := 51) A13) (rows (M := 1) (N := 51) A14 0) (ix2 p e) := by
  subst h1 h2 h3 h4 h5 h6 h7 h8 h9 h10 h11 h12 h13 h14
  rw [Body.stored_apply, Cert.Mlp.result_apply]
  exact congrArg (fun x => Cert.Mlp.mlp (rows (M := 16) (N := 128) x1) (rows (M := 1) (N := 128) x2 0) (rows (M := 128) (N := 64) x3) (rows (M := 1) (N := 64) x4 0) (rows (M := 64) (N := 32) x5) (rows (M := 1) (N := 32) x6 0) (rows (M := 32) (N := 16) x7) (rows (M := 1) (N := 16) x8 0) (rows (M := 16) (N := 8) x9) (rows (M := 1) (N := 8) x10 0) (rows (M := 8) (N := 4) x11) (rows (M := 1) (N := 4) x12 0) (rows (M := 4) (N := 51) x13) (rows (M := 1) (N := 51) x14 0) x e) (funext hrow)

/-- Window 1's block at any point is its whole array. -/
theorem whole1 (c : Dev nD) (t : Fin cfg0.N) : (iblk m c 1 t : Vec Ideal S16x128 .f32) = V m c main_arg3 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_arg3 _ = V m c main_arg3 y
  refine congrArg _ (funext fun a => Fin.ext ?_)
  match a with
  | ⟨0, _⟩ => show win0_1.index t (0 : Fin 2) * 16 + 1 * (y 0).val = (y 0).val; rw [f1a]; omega
  | ⟨1, _⟩ => show win0_1.index t (1 : Fin 2) * 128 + 1 * (y 1).val = (y 1).val; rw [f1b]; omega

/-- Window 2's block at any point is its whole array. -/
theorem whole2 (c : Dev nD) (t : Fin cfg0.N) : (iblk m c 2 t : Vec Ideal S1x128 .f32) = V m c main_v20 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_v20 _ = V m c main_v20 y
  refine congrArg _ (funext fun a => Fin.ext ?_)
  match a with
  | ⟨0, _⟩ => show win0_2.index t (0 : Fin 2) * 1 + 1 * (y 0).val = (y 0).val; rw [f2a]; omega
  | ⟨1, _⟩ => show win0_2.index t (1 : Fin 2) * 128 + 1 * (y 1).val = (y 1).val; rw [f2b]; omega

/-- Window 3's block at any point is its whole array. -/
theorem whole3 (c : Dev nD) (t : Fin cfg0.N) : (iblk m c 3 t : Vec Ideal S128x64 .f32) = V m c main_arg5 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_arg5 _ = V m c main_arg5 y
  refine congrArg _ (funext fun a => Fin.ext ?_)
  match a with
  | ⟨0, _⟩ => show win0_3.index t (0 : Fin 2) * 128 + 1 * (y 0).val = (y 0).val; rw [f3a]; omega
  | ⟨1, _⟩ => show win0_3.index t (1 : Fin 2) * 64 + 1 * (y 1).val = (y 1).val; rw [f3b]; omega

/-- Window 4's block at any point is its whole array. -/
theorem whole4 (c : Dev nD) (t : Fin cfg0.N) : (iblk m c 4 t : Vec Ideal S1x64 .f32) = V m c main_v21 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_v21 _ = V m c main_v21 y
  refine congrArg _ (funext fun a => Fin.ext ?_)
  match a with
  | ⟨0, _⟩ => show win0_4.index t (0 : Fin 2) * 1 + 1 * (y 0).val = (y 0).val; rw [f4a]; omega
  | ⟨1, _⟩ => show win0_4.index t (1 : Fin 2) * 64 + 1 * (y 1).val = (y 1).val; rw [f4b]; omega

/-- Window 5's block at any point is its whole array. -/
theorem whole5 (c : Dev nD) (t : Fin cfg0.N) : (iblk m c 5 t : Vec Ideal S64x32 .f32) = V m c main_arg7 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_arg7 _ = V m c main_arg7 y
  refine congrArg _ (funext fun a => Fin.ext ?_)
  match a with
  | ⟨0, _⟩ => show win0_5.index t (0 : Fin 2) * 64 + 1 * (y 0).val = (y 0).val; rw [f5a]; omega
  | ⟨1, _⟩ => show win0_5.index t (1 : Fin 2) * 32 + 1 * (y 1).val = (y 1).val; rw [f5b]; omega

/-- Window 6's block at any point is its whole array. -/
theorem whole6 (c : Dev nD) (t : Fin cfg0.N) : (iblk m c 6 t : Vec Ideal S1x32 .f32) = V m c main_v22 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_v22 _ = V m c main_v22 y
  refine congrArg _ (funext fun a => Fin.ext ?_)
  match a with
  | ⟨0, _⟩ => show win0_6.index t (0 : Fin 2) * 1 + 1 * (y 0).val = (y 0).val; rw [f6a]; omega
  | ⟨1, _⟩ => show win0_6.index t (1 : Fin 2) * 32 + 1 * (y 1).val = (y 1).val; rw [f6b]; omega

/-- Window 7's block at any point is its whole array. -/
theorem whole7 (c : Dev nD) (t : Fin cfg0.N) : (iblk m c 7 t : Vec Ideal S32x16 .f32) = V m c main_arg9 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_arg9 _ = V m c main_arg9 y
  refine congrArg _ (funext fun a => Fin.ext ?_)
  match a with
  | ⟨0, _⟩ => show win0_7.index t (0 : Fin 2) * 32 + 1 * (y 0).val = (y 0).val; rw [f7a]; omega
  | ⟨1, _⟩ => show win0_7.index t (1 : Fin 2) * 16 + 1 * (y 1).val = (y 1).val; rw [f7b]; omega

/-- Window 8's block at any point is its whole array. -/
theorem whole8 (c : Dev nD) (t : Fin cfg0.N) : (iblk m c 8 t : Vec Ideal S1x16 .f32) = V m c main_v23 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_v23 _ = V m c main_v23 y
  refine congrArg _ (funext fun a => Fin.ext ?_)
  match a with
  | ⟨0, _⟩ => show win0_8.index t (0 : Fin 2) * 1 + 1 * (y 0).val = (y 0).val; rw [f8a]; omega
  | ⟨1, _⟩ => show win0_8.index t (1 : Fin 2) * 16 + 1 * (y 1).val = (y 1).val; rw [f8b]; omega

/-- Window 9's block at any point is its whole array. -/
theorem whole9 (c : Dev nD) (t : Fin cfg0.N) : (iblk m c 9 t : Vec Ideal S16x8 .f32) = V m c main_arg11 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_arg11 _ = V m c main_arg11 y
  refine congrArg _ (funext fun a => Fin.ext ?_)
  match a with
  | ⟨0, _⟩ => show win0_9.index t (0 : Fin 2) * 16 + 1 * (y 0).val = (y 0).val; rw [f9a]; omega
  | ⟨1, _⟩ => show win0_9.index t (1 : Fin 2) * 8 + 1 * (y 1).val = (y 1).val; rw [f9b]; omega

/-- Window 10's block at any point is its whole array. -/
theorem whole10 (c : Dev nD) (t : Fin cfg0.N) : (iblk m c 10 t : Vec Ideal S1x8 .f32) = V m c main_v24 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_v24 _ = V m c main_v24 y
  refine congrArg _ (funext fun a => Fin.ext ?_)
  match a with
  | ⟨0, _⟩ => show win0_10.index t (0 : Fin 2) * 1 + 1 * (y 0).val = (y 0).val; rw [f10a]; omega
  | ⟨1, _⟩ => show win0_10.index t (1 : Fin 2) * 8 + 1 * (y 1).val = (y 1).val; rw [f10b]; omega

/-- Window 11's block at any point is its whole array. -/
theorem whole11 (c : Dev nD) (t : Fin cfg0.N) : (iblk m c 11 t : Vec Ideal S8x4 .f32) = V m c main_arg13 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_arg13 _ = V m c main_arg13 y
  refine congrArg _ (funext fun a => Fin.ext ?_)
  match a with
  | ⟨0, _⟩ => show win0_11.index t (0 : Fin 2) * 8 + 1 * (y 0).val = (y 0).val; rw [f11a]; omega
  | ⟨1, _⟩ => show win0_11.index t (1 : Fin 2) * 4 + 1 * (y 1).val = (y 1).val; rw [f11b]; omega

/-- Window 12's block at any point is its whole array. -/
theorem whole12 (c : Dev nD) (t : Fin cfg0.N) : (iblk m c 12 t : Vec Ideal S1x4 .f32) = V m c main_v25 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_v25 _ = V m c main_v25 y
  refine congrArg _ (funext fun a => Fin.ext ?_)
  match a with
  | ⟨0, _⟩ => show win0_12.index t (0 : Fin 2) * 1 + 1 * (y 0).val = (y 0).val; rw [f12a]; omega
  | ⟨1, _⟩ => show win0_12.index t (1 : Fin 2) * 4 + 1 * (y 1).val = (y 1).val; rw [f12b]; omega

/-- Window 13's block at any point is its whole array. -/
theorem whole13 (c : Dev nD) (t : Fin cfg0.N) : (iblk m c 13 t : Vec Ideal S4x51 .f32) = V m c main_arg15 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_arg15 _ = V m c main_arg15 y
  refine congrArg _ (funext fun a => Fin.ext ?_)
  match a with
  | ⟨0, _⟩ => show win0_13.index t (0 : Fin 2) * 4 + 1 * (y 0).val = (y 0).val; rw [f13a]; omega
  | ⟨1, _⟩ => show win0_13.index t (1 : Fin 2) * 51 + 1 * (y 1).val = (y 1).val; rw [f13b]; omega

/-- Window 14's block at any point is its whole array. -/
theorem whole14 (c : Dev nD) (t : Fin cfg0.N) : (iblk m c 14 t : Vec Ideal S1x51 .f32) = V m c main_v26 := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  funext y
  unfold iblk
  rw [View.read_apply]
  show V m c main_v26 _ = V m c main_v26 y
  refine congrArg _ (funext fun a => Fin.ext ?_)
  match a with
  | ⟨0, _⟩ => show win0_14.index t (0 : Fin 2) * 1 + 1 * (y 0).val = (y 0).val; rw [f14a]; omega
  | ⟨1, _⟩ => show win0_14.index t (1 : Fin 2) * 51 + 1 * (y 1).val = (y 1).val; rw [f14b]; omega

/-- Row r of the feature block at point t is row 10000·t + r of the feature matrix. -/
theorem feature_row (c : Dev nD) (t : Fin cfg0.N) (r : Fin 10000) (p : Fin 2000000) (hp : p.val = t.val * 10000 + r.val) (k : Fin 16) :
    (iblk m c 0 t : Vec Ideal S10000x16 .bf16) (ix2 r k) = V m c main_v19 (ix2 p k) := by
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  unfold iblk
  rw [View.read_apply]
  show V m c main_v19 _ = V m c main_v19 (ix2 p k)
  refine congrArg _ (funext fun a => Fin.ext ?_)
  match a with
  | ⟨0, _⟩ => show win0_0.index t (0 : Fin 2) * 10000 + 1 * r.val = p.val; rw [f0a, hp]; omega
  | ⟨1, _⟩ => show win0_0.index t (1 : Fin 2) * 16 + 1 * k.val = k.val; rw [f0b]; omega

/-- WHAT POINT t WRITES BACK is block t of `arrayOf`. -/
theorem flushed_eq (c : Dev nD) (t : Fin cfg0.N) :
    (dats m 0 c).flushed 15 t = ((cfg0.win 15).blk t).view.read (Elt Ideal) (arrayOf m c) := by
  show (cfg0.win 15).cut (grid0.coords t) ((dats m 0 c).after 15 t) = _
  rw [after0_15]
  unfold out0_15
  rw [View.canon_unit_zero hz]
  simp only [View.ld_unit_zero (S := S10000x16) hz, View.ld_unit_zero (S := S16x128) hz, View.ld_unit_zero (S := S1x128) hz, View.ld_unit_zero (S := S128x64) hz, View.ld_unit_zero (S := S1x64) hz, View.ld_unit_zero (S := S64x32) hz, View.ld_unit_zero (S := S1x32) hz, View.ld_unit_zero (S := S32x16) hz, View.ld_unit_zero (S := S1x16) hz, View.ld_unit_zero (S := S16x8) hz, View.ld_unit_zero (S := S1x8) hz, View.ld_unit_zero (S := S8x4) hz, View.ld_unit_zero (S := S1x4) hz, View.ld_unit_zero (S := S4x51) hz, View.ld_unit_zero (S := S1x51) hz]
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts t
  have hN : cfg0.N = 200 := N_0
  funext j
  obtain ⟨r, e, rfl⟩ : ∃ (r : Fin 10000) (e : Fin 51), j = ix2 r e := ⟨j 0, j 1, eq_ix2 j⟩
  have hp : t.val * 10000 + r.val < 2000000 := by have := t.isLt; have := r.isLt; omega
  have e15 : ((cfg0.win 15).blk t).view.emb (ix2 r e) = ix2 (⟨t.val * 10000 + r.val, hp⟩ : Fin 2000000) e :=
    funext fun a => Fin.ext (by
      match a with
      | ⟨0, _⟩ => show win0_15.index t (0 : Fin 2) * 10000 + 1 * r.val = t.val * 10000 + r.val; rw [f15a]; omega
      | ⟨1, _⟩ => show win0_15.index t (1 : Fin 2) * 51 + 1 * e.val = e.val; rw [f15b]; omega)
  show k0_pay1 (F := Ideal) (k0_pay2 (F := Ideal) (iblk m c 0 t) (iblk m c 1 t) (iblk m c 2 t) (iblk m c 3 t) (iblk m c 4 t) (iblk m c 5 t) (iblk m c 6 t) (iblk m c 7 t)) (iblk m c 8 t) (iblk m c 9 t) (iblk m c 10 t) (iblk m c 11 t) (iblk m c 12 t) (iblk m c 13 t) (iblk m c 14 t) (ix2 r e)
    = arrayOf m c (((cfg0.win 15).blk t).view.emb (ix2 r e))
  exact (point_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      (V m c main_v19) (V m c main_arg3) (V m c main_v20) (V m c main_arg5) (V m c main_v21) (V m c main_arg7) (V m c main_v22) (V m c main_arg9) (V m c main_v23) (V m c main_arg11) (V m c main_v24) (V m c main_arg13) (V m c main_v25) (V m c main_arg15) (V m c main_v26)
      (whole1 m c t) (whole2 m c t) (whole3 m c t) (whole4 m c t) (whole5 m c t) (whole6 m c t) (whole7 m c t) (whole8 m c t) (whole9 m c t) (whole10 m c t) (whole11 m c t) (whole12 m c t) (whole13 m c t) (whole14 m c t)
      r e ⟨t.val * 10000 + r.val, hp⟩ (feature_row m c t r ⟨t.val * 10000 + r.val, hp⟩ rfl)).trans
    (congrArg (arrayOf m c) e15.symm)

/-- An index of the result array is in point t's block iff each coordinate is in the block's range on its axis. -/
theorem mem_blk (t : Fin cfg0.N) (i : S2000000x51.Idx) :
    i ∈ ((cfg0.win 15).blk t).view.set ↔ ∀ a : Fin 2, win0_15.index t a * S10000x51.size a ≤ (i a).val ∧ (i a).val < win0_15.index t a * S10000x51.size a + S10000x51.size a := by
  show i ∈ ((View.whole main_v27).slice (win0_15.rect t)).set ↔ _
  rw [View.set_slice_whole, Rect.mem_set_unit]
  exact Iff.rfl

/-- The 200 blocks of 10000 rows tile the 2000000 rows: row p lies in the block of point p / 10000. -/
theorem cover (i : S2000000x51.Idx) : ∃ t : Fin cfg0.N, (cfg0.win 15).flush t = true ∧ i ∈ ((cfg0.win 15).blk t).view.set := by
  have hi0 : (i 0).val < 2000000 := (i 0).isLt
  have hi1 : (i 1).val < 51 := (i 1).isLt
  have hN : cfg0.N = 200 := N_0
  have hq : (i 0).val / 10000 < cfg0.N := by rw [hN]; omega
  obtain ⟨f0a, f0b, f15a, f15b, f1a, f1b, f2a, f2b, f3a, f3b, f4a, f4b, f5a, f5b, f6a, f6b, f7a, f7b, f8a, f8b, f9a, f9b, f10a, f10b, f11a, f11b, f12a, f12b, f13a, f13b, f14a, f14b⟩ := idx_facts ⟨(i 0).val / 10000, hq⟩
  refine ⟨⟨(i 0).val / 10000, hq⟩, flush0_15 _, ?_⟩
  rw [mem_blk]
  intro a
  match a with
  | ⟨0, _⟩ =>
    show win0_15.index ⟨(i 0).val / 10000, hq⟩ (0 : Fin 2) * 10000 ≤ (i 0).val ∧ (i 0).val < win0_15.index ⟨(i 0).val / 10000, hq⟩ (0 : Fin 2) * 10000 + 10000
    rw [f15a]
    show (i 0).val / 10000 * 10000 ≤ (i 0).val ∧ (i 0).val < (i 0).val / 10000 * 10000 + 10000
    omega
  | ⟨1, _⟩ =>
    show win0_15.index ⟨(i 0).val / 10000, hq⟩ (1 : Fin 2) * 51 ≤ (i 1).val ∧ (i 1).val < win0_15.index ⟨(i 0).val / 10000, hq⟩ (1 : Fin 2) * 51 + 51
    rw [f15b]
    omega

/-- THE RESULT ARRAY after the run is `arrayOf`. -/
theorem final (c : Dev nD) : (dats m 0 c).arrAt 15 cfg0.N = arrayOf m c :=
  (dats m 0 c).arrAt_eq_of_cover 15 (arrayOf m c) (fun t _ => flushed_eq m c t) cover

end Cert.KernelIdeal.Whole

end
-- ==== Proof.RefRows.lean ====
/-
  The reference, row by row.

  The reference computes the same seven layers on the whole [2000000, 16] feature matrix at once: each layer a
  `dot_general` contracting the features with a weight matrix, plus the bias broadcast over all rows, and a maximum with
  the zero splat after layers 0, 1, 2, 4 and 5. Read at an entry (p, e), a layer's product is the sum over k of
  the input at (p, k) times the weight at (k, e), and the broadcast bias is the bias at e: row p of every stage depends on
  row p of the stage before only. So the reference's result is `Mlp.result` of its feature matrix (the two gathered
  halves joined along the feature axis), its weight arrays read by rows and its rank-1 bias arrays.
-/
import proofs.«135244_j72980084293697_2_alg».proof.Proof.Gen.ReferenceIdeal.Read
import proofs.«135244_j72980084293697_2_alg».proof.Proof.Mlp

noncomputable section

namespace Cert.ReferenceIdeal.Rows

open Idealize.ShloMosaic Idealize.ShloMosaic.ValueIdx Cert.ReferenceIdeal Cert.ReferenceIdeal.Read Cert.LibDenseRows

/-- Stage %22 (features → 128): row p is the dense layer of row p of stage %18. -/
theorem rows_v22 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (p : Fin 2000000) :
    rows (val_main_v22 (F := Ideal) x0 x2 x3 x4) p
      = dense (rows x3) (vec x4) (rows (val_main_v18 (F := Ideal) x0 x2) p) := by
  funext e
  show val_main_v22 (F := Ideal) x0 x2 x3 x4 (ix2 p e)
    = (∑ k : Fin 16, val_main_v18 (F := Ideal) x0 x2 (ix2 p k) * x3 (ix2 k e)) + x4 (ix1 e)
  rw [val_main_v22_apply, val_main_v19_apply, val_main_v21_apply, val_main_v20_apply]
  have el : ∀ k : Fin 16, lidx_main_v19 (ix2 p e) k = ix2 p k := fun k => funext fun a => Fin.ext (by
    match a with | ⟨0, _⟩ => rfl | ⟨1, _⟩ => rfl)
  have er : ∀ k : Fin 16, ridx_main_v19 (ix2 p e) k = ix2 k e := fun k => funext fun a => Fin.ext (by
    match a with | ⟨0, _⟩ => rfl | ⟨1, _⟩ => rfl)
  have eb : idx_main_v20 (idx_main_v21 (ix2 p e)) = ix1 e := funext fun a => Fin.ext (by
    match a with | ⟨0, _⟩ => rfl)
  simp only [el, er, eb]
  rfl

/-- Stage %27 (features → 64): row p is the dense layer of row p of stage %23. -/
theorem rows_v27 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 2000000) :
    rows (val_main_v27 (F := Ideal) x0 x2 x3 x4 x5 x6) p
      = dense (rows x5) (vec x6) (rows (val_main_v23 (F := Ideal) x0 x2 x3 x4) p) := by
  funext e
  show val_main_v27 (F := Ideal) x0 x2 x3 x4 x5 x6 (ix2 p e)
    = (∑ k : Fin 128, val_main_v23 (F := Ideal) x0 x2 x3 x4 (ix2 p k) * x5 (ix2 k e)) + x6 (ix1 e)
  rw [val_main_v27_apply, val_main_v24_apply, val_main_v26_apply, val_main_v25_apply]
  have el : ∀ k : Fin 128, lidx_main_v24 (ix2 p e) k = ix2 p k := fun k => funext fun a => Fin.ext (by
    match a with | ⟨0, _⟩ => rfl | ⟨1, _⟩ => rfl)
  have er : ∀ k : Fin 128, ridx_main_v24 (ix2 p e) k = ix2 k e := fun k => funext fun a => Fin.ext (by
    match a with | ⟨0, _⟩ => rfl | ⟨1, _⟩ => rfl)
  have eb : idx_main_v25 (idx_main_v26 (ix2 p e)) = ix1 e := funext fun a => Fin.ext (by
    match a with | ⟨0, _⟩ => rfl)
  simp only [el, er, eb]
  rfl

/-- Stage %32 (features → 32): row p is the dense layer of row p of stage %28. -/
theorem rows_v32 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (p : Fin 2000000) :
    rows (val_main_v32 (F := Ideal) x0 x2 x3 x4 x5 x6 x7 x8) p
      = dense (rows x7) (vec x8) (rows (val_main_v28 (F := Ideal) x0 x2 x3 x4 x5 x6) p) := by
  funext e
  show val_main_v32 (F := Ideal) x0 x2 x3 x4 x5 x6 x7 x8 (ix2 p e)
    = (∑ k : Fin 64, val_main_v28 (F := Ideal) x0 x2 x3 x4 x5 x6 (ix2 p k) * x7 (ix2 k e)) + x8 (ix1 e)
  rw [val_main_v32_apply, val_main_v29_apply, val_main_v31_apply, val_main_v30_apply]
  have el : ∀ k : Fin 64, lidx_main_v29 (ix2 p e) k = ix2 p k := fun k => funext fun a => Fin.ext (by
    match a with | ⟨0, _⟩ => rfl | ⟨1, _⟩ => rfl)
  have er : ∀ k : Fin 64, ridx_main_v29 (ix2 p e) k = ix2 k e := fun k => funext fun a => Fin.ext (by
    match a with | ⟨0, _⟩ => rfl | ⟨1, _⟩ => rfl)
  have eb : idx_main_v30 (idx_main_v31 (ix2 p e)) = ix1 e := funext fun a => Fin.ext (by
    match a with | ⟨0, _⟩ => rfl)
  simp only [el, er, eb]
  rfl

/-- Stage %37 (features → 16): row p is the dense layer of row p of stage %33. -/
theorem rows_v37 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (p : Fin 2000000) :
    rows (val_main_v37 (F := Ideal) x0 x2 x3 x4 x5 x6 x7 x8 x9 x10) p
      = dense (rows x9) (vec x10) (rows (val_main_v33 (F := Ideal) x0 x2 x3 x4 x5 x6 x7 x8) p) := by
  funext e
  show val_main_v37 (F := Ideal) x0 x2 x3 x4 x5 x6 x7 x8 x9 x10 (ix2 p e)
    = (∑ k : Fin 32, val_main_v33 (F := Ideal) x0 x2 x3 x4 x5 x6 x7 x8 (ix2 p k) * x9 (ix2 k e)) + x10 (ix1 e)
  rw [val_main_v37_apply, val_main_v34_apply, val_main_v36_apply, val_main_v35_apply]
  have el : ∀ k : Fin 32, lidx_main_v34 (ix2 p e) k = ix2 p k := fun k => funext fun a => Fin.ext (by
    match a with | ⟨0, _⟩ => rfl | ⟨1, _⟩ => rfl)
  have er : ∀ k : Fin 32, ridx_main_v34 (ix2 p e) k = ix2 k e := fun k => funext fun a => Fin.ext (by
    match a with | ⟨0, _⟩ => rfl | ⟨1, _⟩ => rfl)
  have eb : idx_main_v35 (idx_main_v36 (ix2 p e)) = ix1 e := funext fun a => Fin.ext (by
    match a with | ⟨0, _⟩ => rfl)
  simp only [el, er, eb]
  rfl

/-- Stage %41 (features → 8): row p is the dense layer of row p of stage %37. -/
theorem rows_v41 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x8, .f32⟩ : BufTy).Contents (Elt Ideal)) (x12 : (⟨S8, .f32⟩ : BufTy).Contents (Elt Ideal)) (p : Fin 2000000) :
    rows (val_main_v41 (F := Ideal) x0 x2 x3 x4 x5 x6 x7 x8 x9 x10 x11 x12) p
      = dense (rows x11) (vec x12) (rows (val_main_v37 (F := Ideal) x0 x2 x3 x4 x5 x6 x7 x8 x9 x10) p) := by
  funext e
  show val_main_v41 (F := Ideal) x0 x2 x3 x4 x5 x6 x7 x8 x9 x10 x11 x12 (ix2 p e)
    = (∑ k : Fin 16, val_main_v37 (F := Ideal) x0 x2 x3 x4 x5 x6 x7 x8 x9 x10 (ix2 p k) * x11 (ix2 k e)) + x12 (ix1 e)
  rw [val_main_v41_apply, val_main_v38_apply, val_main_v40_apply, val_main_v39_apply]
  have el : ∀ k : Fin 16, lidx_main_v38 (ix2 p e) k = ix2 p k := fun k => funext fun a => Fin.ext (by
    match a with | ⟨0, _⟩ => rfl | ⟨1, _⟩ => rfl)
  have er : ∀ k : Fin 16, ridx_main_v38 (ix2 p e) k = ix2 k e := fun k => funext fun a => Fin.ext (by
    match a with | ⟨0, _⟩ => rfl | ⟨1, _⟩ => rfl)
  have eb : idx_main_v39 (idx_main_v40 (ix2 p e)) = ix1 e := funext fun a => Fin.ext (by
    match a with | ⟨0, _⟩ => rfl)
  simp only [el, er, eb]
  rfl

/-- Stage %46 (features → 4): row p is the dense layer of row p of stage %42. -/
theorem rows_v46 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x8, .f32⟩ : BufTy).Contents (Elt Ideal)) (x12 : (⟨S8, .f32⟩ : BufTy).Contents (Elt Ideal)) (x13 : (⟨S8x4, .f32⟩ : BufTy).Contents (Elt Ideal)) (x14 : (⟨S4, .f32⟩ : BufTy).Contents (Elt Ideal)) (p : Fin 2000000) :
    rows (val_main_v46 (F := Ideal) x0 x2 x3 x4 x5 x6 x7 x8 x9 x10 x11 x12 x13 x14) p
      = dense (rows x13) (vec x14) (rows (val_main_v42 (F := Ideal) x0 x2 x3 x4 x5 x6 x7 x8 x9 x10 x11 x12) p) := by
  funext e
  show val_main_v46 (F := Ideal) x0 x2 x3 x4 x5 x6 x7 x8 x9 x10 x11 x12 x13 x14 (ix2 p e)
    = (∑ k : Fin 8, val_main_v42 (F := Ideal) x0 x2 x3 x4 x5 x6 x7 x8 x9 x10 x11 x12 (ix2 p k) * x13 (ix2 k e)) + x14 (ix1 e)
  rw [val_main_v46_apply, val_main_v43_apply, val_main_v45_apply, val_main_v44_apply]
  have el : ∀ k : Fin 8, lidx_main_v43 (ix2 p e) k = ix2 p k := fun k => funext fun a => Fin.ext (by
    match a with | ⟨0, _⟩ => rfl | ⟨1, _⟩ => rfl)
  have er : ∀ k : Fin 8, ridx_main_v43 (ix2 p e) k = ix2 k e := fun k => funext fun a => Fin.ext (by
    match a with | ⟨0, _⟩ => rfl | ⟨1, _⟩ => rfl)
  have eb : idx_main_v44 (idx_main_v45 (ix2 p e)) = ix1 e := funext fun a => Fin.ext (by
    match a with | ⟨0, _⟩ => rfl)
  simp only [el, er, eb]
  rfl

/-- Stage %51 (features → 51): row p is the dense layer of row p of stage %47. -/
theorem rows_v51 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x8, .f32⟩ : BufTy).Contents (Elt Ideal)) (x12 : (⟨S8, .f32⟩ : BufTy).Contents (Elt Ideal)) (x13 : (⟨S8x4, .f32⟩ : BufTy).Contents (Elt Ideal)) (x14 : (⟨S4, .f32⟩ : BufTy).Contents (Elt Ideal)) (x15 : (⟨S4x51, .f32⟩ : BufTy).Contents (Elt Ideal)) (x16 : (⟨S51, .f32⟩ : BufTy).Contents (Elt Ideal)) (p : Fin 2000000) :
    rows (val_main_v51 (F := Ideal) x0 x2 x3 x4 x5 x6 x7 x8 x9 x10 x11 x12 x13 x14 x15 x16) p
      = dense (rows x15) (vec x16) (rows (val_main_v47 (F := Ideal) x0 x2 x3 x4 x5 x6 x7 x8 x9 x10 x11 x12 x13 x14) p) := by
  funext e
  show val_main_v51 (F := Ideal) x0 x2 x3 x4 x5 x6 x7 x8 x9 x10 x11 x12 x13 x14 x15 x16 (ix2 p e)
    = (∑ k : Fin 4, val_main_v47 (F := Ideal) x0 x2 x3 x4 x5 x6 x7 x8 x9 x10 x11 x12 x13 x14 (ix2 p k) * x15 (ix2 k e)) + x16 (ix1 e)
  rw [val_main_v51_apply, val_main_v48_apply, val_main_v50_apply, val_main_v49_apply]
  have el : ∀ k : Fin 4, lidx_main_v48 (ix2 p e) k = ix2 p k := fun k => funext fun a => Fin.ext (by
    match a with | ⟨0, _⟩ => rfl | ⟨1, _⟩ => rfl)
  have er : ∀ k : Fin 4, ridx_main_v48 (ix2 p e) k = ix2 k e := fun k => funext fun a => Fin.ext (by
    match a with | ⟨0, _⟩ => rfl | ⟨1, _⟩ => rfl)
  have eb : idx_main_v49 (idx_main_v50 (ix2 p e)) = ix1 e := funext fun a => Fin.ext (by
    match a with | ⟨0, _⟩ => rfl)
  simp only [el, er, eb]
  rfl

/-- Stage %23: the maximum of stage %22 with the zero splat is ReLU of every row. -/
theorem rows_v23 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (p : Fin 2000000) :
    rows (val_main_v23 (F := Ideal) x0 x2 x3 x4) p = relu (rows (val_main_v22 (F := Ideal) x0 x2 x3 x4) p) := by
  funext e
  show val_main_v23 (F := Ideal) x0 x2 x3 x4 (ix2 p e) = max (val_main_v22 (F := Ideal) x0 x2 x3 x4 (ix2 p e)) 0
  rw [val_main_v23_apply, val_main_call0_v0_apply, val_main_call0_cst_apply]
  show max _ (Ideal.ofBits .f32 0x00000000#32) = _
  rw [Ideal.ofBits_zero_f32]

/-- Stage %28: the maximum of stage %27 with the zero splat is ReLU of every row. -/
theorem rows_v28 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 2000000) :
    rows (val_main_v28 (F := Ideal) x0 x2 x3 x4 x5 x6) p = relu (rows (val_main_v27 (F := Ideal) x0 x2 x3 x4 x5 x6) p) := by
  funext e
  show val_main_v28 (F := Ideal) x0 x2 x3 x4 x5 x6 (ix2 p e) = max (val_main_v27 (F := Ideal) x0 x2 x3 x4 x5 x6 (ix2 p e)) 0
  rw [val_main_v28_apply, val_main_call1_v0_apply, val_main_call1_cst_apply]
  show max _ (Ideal.ofBits .f32 0x00000000#32) = _
  rw [Ideal.ofBits_zero_f32]

/-- Stage %33: the maximum of stage %32 with the zero splat is ReLU of every row. -/
theorem rows_v33 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (p : Fin 2000000) :
    rows (val_main_v33 (F := Ideal) x0 x2 x3 x4 x5 x6 x7 x8) p = relu (rows (val_main_v32 (F := Ideal) x0 x2 x3 x4 x5 x6 x7 x8) p) := by
  funext e
  show val_main_v33 (F := Ideal) x0 x2 x3 x4 x5 x6 x7 x8 (ix2 p e) = max (val_main_v32 (F := Ideal) x0 x2 x3 x4 x5 x6 x7 x8 (ix2 p e)) 0
  rw [val_main_v33_apply, val_main_call2_v0_apply, val_main_call2_cst_apply]
  show max _ (Ideal.ofBits .f32 0x00000000#32) = _
  rw [Ideal.ofBits_zero_f32]

/-- Stage %42: the maximum of stage %41 with the zero splat is ReLU of every row. -/
theorem rows_v42 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x8, .f32⟩ : BufTy).Contents (Elt Ideal)) (x12 : (⟨S8, .f32⟩ : BufTy).Contents (Elt Ideal)) (p : Fin 2000000) :
    rows (val_main_v42 (F := Ideal) x0 x2 x3 x4 x5 x6 x7 x8 x9 x10 x11 x12) p = relu (rows (val_main_v41 (F := Ideal) x0 x2 x3 x4 x5 x6 x7 x8 x9 x10 x11 x12) p) := by
  funext e
  show val_main_v42 (F := Ideal) x0 x2 x3 x4 x5 x6 x7 x8 x9 x10 x11 x12 (ix2 p e) = max (val_main_v41 (F := Ideal) x0 x2 x3 x4 x5 x6 x7 x8 x9 x10 x11 x12 (ix2 p e)) 0
  rw [val_main_v42_apply, val_main_call3_v0_apply, val_main_call3_cst_apply]
  show max _ (Ideal.ofBits .f32 0x00000000#32) = _
  rw [Ideal.ofBits_zero_f32]

/-- Stage %47: the maximum of stage %46 with the zero splat is ReLU of every row. -/
theorem rows_v47 (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x8, .f32⟩ : BufTy).Contents (Elt Ideal)) (x12 : (⟨S8, .f32⟩ : BufTy).Contents (Elt Ideal)) (x13 : (⟨S8x4, .f32⟩ : BufTy).Contents (Elt Ideal)) (x14 : (⟨S4, .f32⟩ : BufTy).Contents (Elt Ideal)) (p : Fin 2000000) :
    rows (val_main_v47 (F := Ideal) x0 x2 x3 x4 x5 x6 x7 x8 x9 x10 x11 x12 x13 x14) p = relu (rows (val_main_v46 (F := Ideal) x0 x2 x3 x4 x5 x6 x7 x8 x9 x10 x11 x12 x13 x14) p) := by
  funext e
  show val_main_v47 (F := Ideal) x0 x2 x3 x4 x5 x6 x7 x8 x9 x10 x11 x12 x13 x14 (ix2 p e) = max (val_main_v46 (F := Ideal) x0 x2 x3 x4 x5 x6 x7 x8 x9 x10 x11 x12 x13 x14 (ix2 p e)) 0
  rw [val_main_v47_apply, val_main_call4_v0_apply, val_main_call4_cst_apply]
  show max _ (Ideal.ofBits .f32 0x00000000#32) = _
  rw [Ideal.ofBits_zero_f32]

/-- THE REFERENCE'S RESULT is the seven layers applied to every row of its feature matrix. -/
theorem result_eq (x0 : (⟨S100000x8, .f32⟩ : BufTy).Contents (Elt Ideal)) (x2 : (⟨S2000000x2, .i32⟩ : BufTy).Contents (Elt Ideal)) (x3 : (⟨S16x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x8, .f32⟩ : BufTy).Contents (Elt Ideal)) (x12 : (⟨S8, .f32⟩ : BufTy).Contents (Elt Ideal)) (x13 : (⟨S8x4, .f32⟩ : BufTy).Contents (Elt Ideal)) (x14 : (⟨S4, .f32⟩ : BufTy).Contents (Elt Ideal)) (x15 : (⟨S4x51, .f32⟩ : BufTy).Contents (Elt Ideal)) (x16 : (⟨S51, .f32⟩ : BufTy).Contents (Elt Ideal)) :
    val_main_v51 (F := Ideal) x0 x2 x3 x4 x5 x6 x7 x8 x9 x10 x11 x12 x13 x14 x15 x16
      = Cert.Mlp.result (val_main_v18 (F := Ideal) x0 x2) (rows x3) (vec x4) (rows x5) (vec x6) (rows x7) (vec x8)
          (rows x9) (vec x10) (rows x11) (vec x12) (rows x13) (vec x14) (rows x15) (vec x16) := by
  funext i
  obtain ⟨p, e, rfl⟩ : ∃ (p : Fin 2000000) (e : Fin 51), i = ix2 p e := ⟨i 0, i 1, eq_ix2 i⟩
  show rows (val_main_v51 (F := Ideal) x0 x2 x3 x4 x5 x6 x7 x8 x9 x10 x11 x12 x13 x14 x15 x16) p e = _
  rw [rows_v51, rows_v47, rows_v46, rows_v42, rows_v41, rows_v37, rows_v33, rows_v32, rows_v28, rows_v27, rows_v23, rows_v22]
  rfl

end Cert.ReferenceIdeal.Rows

end
-- ==== Proof.Claims.lean ====
/-
  The claims.

  Both programs first gather, for every edge, the two rows of the object-feature table its index pair names (a negative
  index counted from the end) and join them into one row of 16 features; the kernel then narrows that matrix to bf16,
  which changes nothing on the extended reals, and reshapes each bias [N] to one row [1, N]. So the arrays the kernel's
  region finds are the reference's feature matrix of the same arguments, the weight arguments themselves, and each bias
  argument as a single row; `Whole.arrayOf` of them is `Mlp.result` of the arguments (`array_eq`), which is what the
  reference's run ends with (`Rows.result_eq`). The second result of both programs is the integer argument `relations`
  itself, unchanged by either run. No law of the extended reals is used beyond reading both sides as the same sums and
  maxima term by term, so the precondition (finite inputs) is never opened. The idealization pass rewrote nothing, so the
  idealized kernel is the kernel's own text and `preserves` has no conjunct.
-/
import proofs.«135244_j72980084293697_2_alg».proof.Defs
import proofs.«135244_j72980084293697_2_alg».proof.Proof.Gen.Kernel.Frame
import proofs.«135244_j72980084293697_2_alg».proof.Proof.Gen.Pre_finite_inputs
import proofs.«135244_j72980084293697_2_alg».proof.Proof.KernelArray
import proofs.«135244_j72980084293697_2_alg».proof.Proof.RefRows
import Idealize.ShloMosaic.Lib.StableHlo.Run

noncomputable section

open Idealize.ShloMosaic Idealize.ShloMosaic.TcCoe Idealize.SL.Sem Idealize.ShloMosaic.StableHlo
open Idealize.ShloMosaic.ValueIdx Cert.LibDenseRows

/-! ## The arrays the kernel's region finds, in terms of the arguments -/

namespace Cert.KernelIdeal.Prefix

open Cert.KernelIdeal Cert.KernelIdeal.Gen

variable (m : (ℓ : Loc nD τ sig) → Buf (Elt Ideal) ℓ)

/-- The feature matrix the region finds — the two gathers joined, narrowed to bf16 — is the reference's feature matrix
    of the same two arguments. -/
theorem features_eq (c : Dev nD) :
    (V m c main_v19 : S2000000x16.Idx → EReal)
      = Cert.ReferenceIdeal.Read.val_main_v18 (F := Ideal) (m ((c.tc : Thread nD τ).loc main_arg0)) (m ((c.tc : Thread nD τ).loc main_arg2)) := by
  dsimp only [V, hostOps0]; after_results_simp; rfl

/-- The one row of the reshaped bias [1, 128] is the bias argument [128]. -/
theorem bias_main_v20 (c : Dev nD) :
    rows (M := 1) (N := 128) (V m c main_v20) 0 = vec (N := 128) (m ((c.tc : Thread nD τ).loc main_arg4)) := by
  have e : (V m c main_v20 : S1x128.Idx → EReal)
      = shapeCast S1x128 ((m ((c.tc : Thread nD τ).loc main_arg4)) : S128.Idx → EReal) Facts₀.shapeCasts_S128_S1x128 := by
    dsimp only [V, hostOps0]; after_results; rfl
  exact funext fun j => (congrFun e (ix2 (0 : Fin 1) j)).trans (shapeCast_a_1a_apply _ _ (0 : Fin 1) j)

/-- The one row of the reshaped bias [1, 64] is the bias argument [64]. -/
theorem bias_main_v21 (c : Dev nD) :
    rows (M := 1) (N := 64) (V m c main_v21) 0 = vec (N := 64) (m ((c.tc : Thread nD τ).loc main_arg6)) := by
  have e : (V m c main_v21 : S1x64.Idx → EReal)
      = shapeCast S1x64 ((m ((c.tc : Thread nD τ).loc main_arg6)) : S64.Idx → EReal) Facts₀.shapeCasts_S64_S1x64 := by
    dsimp only [V, hostOps0]; after_results; rfl
  exact funext fun j => (congrFun e (ix2 (0 : Fin 1) j)).trans (shapeCast_a_1a_apply _ _ (0 : Fin 1) j)

/-- The one row of the reshaped bias [1, 32] is the bias argument [32]. -/
theorem bias_main_v22 (c : Dev nD) :
    rows (M := 1) (N := 32) (V m c main_v22) 0 = vec (N := 32) (m ((c.tc : Thread nD τ).loc main_arg8)) := by
  have e : (V m c main_v22 : S1x32.Idx → EReal)
      = shapeCast S1x32 ((m ((c.tc : Thread nD τ).loc main_arg8)) : S32.Idx → EReal) Facts₀.shapeCasts_S32_S1x32 := by
    dsimp only [V, hostOps0]; after_results; rfl
  exact funext fun j => (congrFun e (ix2 (0 : Fin 1) j)).trans (shapeCast_a_1a_apply _ _ (0 : Fin 1) j)

/-- The one row of the reshaped bias [1, 16] is the bias argument [16]. -/
theorem bias_main_v23 (c : Dev nD) :
    rows (M := 1) (N := 16) (V m c main_v23) 0 = vec (N := 16) (m ((c.tc : Thread nD τ).loc main_arg10)) := by
  have e : (V m c main_v23 : S1x16.Idx → EReal)
      = shapeCast S1x16 ((m ((c.tc : Thread nD τ).loc main_arg10)) : S16.Idx → EReal) Facts₀.shapeCasts_S16_S1x16 := by
    dsimp only [V, hostOps0]; after_results; rfl
  exact funext fun j => (congrFun e (ix2 (0 : Fin 1) j)).trans (shapeCast_a_1a_apply _ _ (0 : Fin 1) j)

/-- The one row of the reshaped bias [1, 8] is the bias argument [8]. -/
theorem bias_main_v24 (c : Dev nD) :
    rows (M := 1) (N := 8) (V m c main_v24) 0 = vec (N := 8) (m ((c.tc : Thread nD τ).loc main_arg12)) := by
  have e : (V m c main_v24 : S1x8.Idx → EReal)
      = shapeCast S1x8 ((m ((c.tc : Thread nD τ).loc main_arg12)) : S8.Idx → EReal) Facts₀.shapeCasts_S8_S1x8 := by
    dsimp only [V, hostOps0]; after_results; rfl
  exact funext fun j => (congrFun e (ix2 (0 : Fin 1) j)).trans (shapeCast_a_1a_apply _ _ (0 : Fin 1) j)

/-- The one row of the reshaped bias [1, 4] is the bias argument [4]. -/
theorem bias_main_v25 (c : Dev nD) :
    rows (M := 1) (N := 4) (V m c main_v25) 0 = vec (N := 4) (m ((c.tc : Thread nD τ).loc main_arg14)) := by
  have e : (V m c main_v25 : S1x4.Idx → EReal)
      = shapeCast S1x4 ((m ((c.tc : Thread nD τ).loc main_arg14)) : S4.Idx → EReal) Facts₀.shapeCasts_S4_S1x4 := by
    dsimp only [V, hostOps0]; after_results; rfl
  exact funext fun j => (congrFun e (ix2 (0 : Fin 1) j)).trans (shapeCast_a_1a_apply _ _ (0 : Fin 1) j)

/-- The one row of the reshaped bias [1, 51] is the bias argument [51]. -/
theorem bias_main_v26 (c : Dev nD) :
    rows (M := 1) (N := 51) (V m c main_v26) 0 = vec (N := 51) (m ((c.tc : Thread nD τ).loc main_arg16)) := by
  have e : (V m c main_v26 : S1x51.Idx → EReal)
      = shapeCast S1x51 ((m ((c.tc : Thread nD τ).loc main_arg16)) : S51.Idx → EReal) Facts₀.shapeCasts_S51_S1x51 := by
    dsimp only [V, hostOps0]; after_results; rfl
  exact funext fun j => (congrFun e (ix2 (0 : Fin 1) j)).trans (shapeCast_a_1a_apply _ _ (0 : Fin 1) j)

/-- The result array of the kernel's run as `Mlp.result` of the ARGUMENTS. -/
theorem array_eq (c : Dev nD) :
    Cert.KernelIdeal.Whole.arrayOf m c
      = Cert.Mlp.result (Cert.ReferenceIdeal.Read.val_main_v18 (F := Ideal) (m ((c.tc : Thread nD τ).loc main_arg0)) (m ((c.tc : Thread nD τ).loc main_arg2)))
          (rows (M := 16) (N := 128) (m ((c.tc : Thread nD τ).loc main_arg3))) (vec (N := 128) (m ((c.tc : Thread nD τ).loc main_arg4)))
          (rows (M := 128) (N := 64) (m ((c.tc : Thread nD τ).loc main_arg5))) (vec (N := 64) (m ((c.tc : Thread nD τ).loc main_arg6)))
          (rows (M := 64) (N := 32) (m ((c.tc : Thread nD τ).loc main_arg7))) (vec (N := 32) (m ((c.tc : Thread nD τ).loc main_arg8)))
          (rows (M := 32) (N := 16) (m ((c.tc : Thread nD τ).loc main_arg9))) (vec (N := 16) (m ((c.tc : Thread nD τ).loc main_arg10)))
          (rows (M := 16) (N := 8) (m ((c.tc : Thread nD τ).loc main_arg11))) (vec (N := 8) (m ((c.tc : Thread nD τ).loc main_arg12)))
          (rows (M := 8) (N := 4) (m ((c.tc : Thread nD τ).loc main_arg13))) (vec (N := 4) (m ((c.tc : Thread nD τ).loc main_arg14)))
          (rows (M := 4) (N := 51) (m ((c.tc : Thread nD τ).loc main_arg15))) (vec (N := 51) (m ((c.tc : Thread nD τ).loc main_arg16))) := by
  show Cert.Mlp.result (V m c main_v19) (rows (M := 16) (N := 128) (V m c main_arg3)) (rows (M := 1) (N := 128) (V m c main_v20) 0) (rows (M := 128) (N := 64) (V m c main_arg5)) (rows (M := 1) (N := 64) (V m c main_v21) 0) (rows (M := 64) (N := 32) (V m c main_arg7)) (rows (M := 1) (N := 32) (V m c main_v22) 0) (rows (M := 32) (N := 16) (V m c main_arg9)) (rows (M := 1) (N := 16) (V m c main_v23) 0) (rows (M := 16) (N := 8) (V m c main_arg11)) (rows (M := 1) (N := 8) (V m c main_v24) 0) (rows (M := 8) (N := 4) (V m c main_arg13)) (rows (M := 1) (N := 4) (V m c main_v25) 0) (rows (M := 4) (N := 51) (V m c main_arg15)) (rows (M := 1) (N := 51) (V m c main_v26) 0) = _
  rw [features_eq m c, V_main_arg3 m c, bias_main_v20 m c, V_main_arg5 m c, bias_main_v21 m c, V_main_arg7 m c, bias_main_v22 m c, V_main_arg9 m c, bias_main_v23 m c, V_main_arg11 m c, bias_main_v24 m c, V_main_arg13 m c, bias_main_v25 m c, V_main_arg15 m c, bias_main_v26 m c]

end Cert.KernelIdeal.Prefix

/-! ## The five conjuncts -/

namespace Cert.Proof.Claims

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both runs end with `Mlp.result` of the arguments in the float result and the argument `relations` in the integer one. -/
theorem algebraic : Cert.algebraic_KernelIdeal_ReferenceIdeal := by
  intro m ρ m' ρ' _ hagree
  refine ⟨fun c => Cert.KernelIdeal.Whole.arrayOf m c,
    fun c => m ((c.tc : Thread Cert.KernelIdeal.nD Cert.KernelIdeal.τ).loc Cert.KernelIdeal.main_arg1), ?_, ?_⟩
  · exact (θ_run Cert.KernelIdeal.defs _ _).mono
      (fun r h c => ⟨(h c).1.trans (Cert.KernelIdeal.Whole.final m c), (h c).2.2.1, (h c).2⟩)
      (Cert.KernelIdeal.Value.run_blocks (F := Ideal) m ρ)
  · refine (θ_run Cert.ReferenceIdeal.defs _ _).mono
      (fun r h c => ⟨(h c).1.trans ?_, (h c).2.1.trans (hagree c).2.1, (h c).2.2⟩)
      (Cert.ReferenceIdeal.Value.run (F := Ideal) m' ρ')
    obtain ⟨a0, a1, a2, a3, a4, a5, a6, a7, a8, a9, a10, a11, a12, a13, a14, a15, a16⟩ := hagree c
    rw [Cert.ReferenceIdeal.Read.val_main_v51_eq, Cert.ReferenceIdeal.Rows.result_eq,
      a0, a2, a3, a4, a5, a6, a7, a8, a9, a10, a11, a12, a13, a14, a15, a16]
    exact (Cert.KernelIdeal.Prefix.array_eq m c).symm

end Cert.Proof.Claims

end
-- ==== Proof.lean ====
/- The proof of `Cert.Claim`: a seven-layer perceptron applied to every edge's gathered feature row, computed by a kernel
   in 200 blocks of 10000 rows, against the same layers applied to the whole matrix at once.
   Proof/LibPlainMatmul.lean and Proof/LibDenseRows.lean read a matrix product, a broadcast bias row and a maximum with zero
   row by row; Proof/Mlp.lean states the result as one function of the arrays; Proof/KernelRows.lean shows that each row of
   the value the kernel's body stores is that function of the same row of its feature block; Proof/KernelArray.lean that the
   200 blocks written back are the blocks of one array and tile it; Proof/RefRows.lean that the reference's result is the
   same function of its feature matrix; Proof/Claims.lean identifies the two feature matrices and biases through the host
   operations in front of the kernel and states the five conjuncts. They are assembled here behind the witnesses of the
   programs' stated side conditions. -/
import proofs.«135244_j72980084293697_2_alg».proof.Defs
import proofs.«135244_j72980084293697_2_alg».proof.Proof.Gen.Kernel
import proofs.«135244_j72980084293697_2_alg».proof.Proof.Gen.Kernel.Skeleton
import proofs.«135244_j72980084293697_2_alg».proof.Proof.Gen.Kernel.Launch
import proofs.«135244_j72980084293697_2_alg».proof.Proof.Gen.Kernel.Points
import proofs.«135244_j72980084293697_2_alg».proof.Proof.Gen.Kernel.Frame
import proofs.«135244_j72980084293697_2_alg».proof.Proof.Gen.KernelIdeal
import proofs.«135244_j72980084293697_2_alg».proof.Proof.Gen.KernelIdeal.Skeleton
import proofs.«135244_j72980084293697_2_alg».proof.Proof.Gen.KernelIdeal.Launch
import proofs.«135244_j72980084293697_2_alg».proof.Proof.Gen.KernelIdeal.Points
import proofs.«135244_j72980084293697_2_alg».proof.Proof.Gen.KernelIdeal.Frame
import proofs.«135244_j72980084293697_2_alg».proof.Proof.Gen.KernelIdeal.Value
import proofs.«135244_j72980084293697_2_alg».proof.Proof.Gen.ReferenceIdeal
import proofs.«135244_j72980084293697_2_alg».proof.Proof.Gen.ReferenceIdeal.Run
import proofs.«135244_j72980084293697_2_alg».proof.Proof.Gen.ReferenceIdeal.Read
import proofs.«135244_j72980084293697_2_alg».proof.Proof.Gen.Pre_finite_inputs
import proofs.«135244_j72980084293697_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
